-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x300x1152 : Shape := ⟨3, ![256, 300, 1152]⟩
abbrev S256 : Shape := ⟨1, ![256]⟩
abbrev S285x1152 : Shape := ⟨2, ![285, 1152]⟩
abbrev S285 : Shape := ⟨1, ![285]⟩
abbrev S_ : Shape := ⟨0, ![]⟩

class Facts : Prop where
  bcast_S_S256x300x1152 : S_.BroadcastsInDim S256x300x1152 (![] : Fin 0 → Fin S256x300x1152.rank)
  reducesTo_S256x300x1152_S_d0_1_2 : S256x300x1152.ReducesTo [0, 1, 2] S_
  h_S_ : 0 < S_.numel
  bcast_S_S285x1152 : S_.BroadcastsInDim S285x1152 (![] : Fin 0 → Fin S285x1152.rank)
  reducesTo_S285x1152_S_d0_1 : S285x1152.ReducesTo [0, 1] S_
  bcast_S_S285 : S_.BroadcastsInDim S285 (![] : Fin 0 → Fin S285.rank)
  reducesTo_S285_S_d0 : S285.ReducesTo [0] S_

variable [Facts]

def fn {F : FTy → Type} [FloatOps F] (main_arg0 : FVec F S256x300x1152 .f32) (main_arg1 : IVec S256 32) (main_arg2 : FVec F S285x1152 .f32) (main_arg3 : FVec F S285 .f32) : IVec S_ 1 :=
  let main_v0 : FVec F S256x300x1152 .f32 := Host.absf main_arg0
  let main_cst : FVec F S_ .f32 := constant S_ .f32 0x7F800000#32
  let main_v1 : FVec F S256x300x1152 .f32 := broadcastInDim S256x300x1152 ![] bcast_S_S256x300x1152 main_cst
  let main_v2 : IVec S256x300x1152 1 := cmpf .olt main_v0 main_v1
  let main_c : IVec S_ 1 := constantI S_ 1 1#1
  let main_v3 : IVec S_ 1 := (fun x v => Host.reduce IntOp.andi x v reducesTo_S256x300x1152_S_d0_1_2 h_S_) main_v2 main_c
  let main_v4 : FVec F S285x1152 .f32 := Host.absf main_arg2
  let main_cst_0 : FVec F S_ .f32 := constant S_ .f32 0x7F800000#32
  let main_v5 : FVec F S285x1152 .f32 := broadcastInDim S285x1152 ![] bcast_S_S285x1152 main_cst_0
  let main_v6 : IVec S285x1152 1 := cmpf .olt main_v4 main_v5
  let main_c_1 : IVec S_ 1 := constantI S_ 1 1#1
  let main_v7 : IVec S_ 1 := (fun x v => Host.reduce IntOp.andi x v reducesTo_S285x1152_S_d0_1 h_S_) main_v6 main_c_1
  let main_v8 : IVec S_ 1 := andi main_v3 main_v7
  let main_v9 : FVec F S285 .f32 := Host.absf main_arg3
  let main_cst_2 : FVec F S_ .f32 := constant S_ .f32 0x7F800000#32
  let main_v10 : FVec F S285 .f32 := broadcastInDim S285 ![] bcast_S_S285 main_cst_2
  let main_v11 : IVec S285 1 := cmpf .olt main_v9 main_v10
  let main_c_3 : IVec S_ 1 := constantI S_ 1 1#1
  let main_v12 : IVec S_ 1 := (fun x v => Host.reduce IntOp.andi x v reducesTo_S285_S_d0 h_S_) main_v11 main_c_3
  let main_v13 : IVec S_ 1 := andi main_v8 main_v12
  main_v13
-- ==== Kernel.lean ====
abbrev S256x300x1152 : Shape := ⟨3, ![256, 300, 1152]⟩
abbrev S256 : Shape := ⟨1, ![256]⟩
abbrev S285x1152 : Shape := ⟨2, ![285, 1152]⟩
abbrev S285 : Shape := ⟨1, ![285]⟩
abbrev S_ : Shape := ⟨0, ![]⟩
abbrev S1x285 : Shape := ⟨2, ![1, 285]⟩
abbrev S256x1 : Shape := ⟨2, ![256, 1]⟩
abbrev S256x285 : Shape := ⟨2, ![256, 285]⟩
abbrev S8x300x1152 : Shape := ⟨3, ![8, 300, 1152]⟩
abbrev S8x1 : Shape := ⟨2, ![8, 1]⟩
abbrev S8x285 : Shape := ⟨2, ![8, 285]⟩
abbrev S8x1152 : Shape := ⟨2, ![8, 1152]⟩
abbrev S1152x285 : Shape := ⟨2, ![1152, 285]⟩

abbrev nBuf : Space → Nat
  | .hbm => 18
  | .vmem => 8
  | .smem => 0
  | _ => 0

abbrev bufTy : (tb : Table) → Fin (tcTables nBuf tb) → BufTy
  | .hbm, ⟨0, _⟩ => ⟨S256x300x1152, .f32⟩
  | .hbm, ⟨1, _⟩ => ⟨S256, .i32⟩
  | .hbm, ⟨2, _⟩ => ⟨S285x1152, .f32⟩
  | .hbm, ⟨3, _⟩ => ⟨S285, .f32⟩
  | .hbm, ⟨4, _⟩ => ⟨S_, .f32⟩
  | .hbm, ⟨5, _⟩ => ⟨S285, .f32⟩
  | .hbm, ⟨6, _⟩ => ⟨S285, .f32⟩
  | .hbm, ⟨7, _⟩ => ⟨S_, .f32⟩
  | .hbm, ⟨8, _⟩ => ⟨S285, .f32⟩
  | .hbm, ⟨9, _⟩ => ⟨S_, .f32⟩
  | .hbm, ⟨10, _⟩ => ⟨S285, .f32⟩
  | .hbm, ⟨11, _⟩ => ⟨S285, .f32⟩
  | .hbm, ⟨12, _⟩ => ⟨S285, .f32⟩
  | .hbm, ⟨13, _⟩ => ⟨S1x285, .f32⟩
  | .hbm, ⟨14, _⟩ => ⟨S285x1152, .bf16⟩
  | .hbm, ⟨15, _⟩ => ⟨S256, .f32⟩
  | .hbm, ⟨16, _⟩ => ⟨S256x1, .f32⟩
  | .hbm, ⟨17, _⟩ => ⟨S256x285, .f32⟩
  | .local _ .vmem, ⟨0, _⟩ => ⟨S8x300x1152, .f32⟩
  | .local _ .vmem, ⟨1, _⟩ => ⟨S8x300x1152, .f32⟩
  | .local _ .vmem, ⟨2, _⟩ => ⟨S285x1152, .bf16⟩
  | .local _ .vmem, ⟨3, _⟩ => ⟨S1x285, .f32⟩
  | .local _ .vmem, ⟨4, _⟩ => ⟨S8x1, .f32⟩
  | .local _ .vmem, ⟨5, _⟩ => ⟨S8x1, .f32⟩
  | .local _ .vmem, ⟨6, _⟩ => ⟨S8x285, .f32⟩
  | .local _ .vmem, ⟨7, _⟩ => ⟨S8x285, .f32⟩
  | _, _ => ⟨S256x300x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x300x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S285x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x285 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x285 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S285 : S_.BroadcastsInDim S285 (![] : Fin 0 → Fin S285.rank)
  reducesTo_S285x1152_S285_d1 : S285x1152.ReducesTo [1] S285
  h_S_ : 0 < S_.numel
  shapeCasts_S285_S1x285 : S285.ShapeCasts S1x285
  bitsLt_bf16_f32 : FTy.bits .bf16 < FTy.bits .f32
  shapeCasts_S256_S256x1 : S256.ShapeCasts S256x1
  inb_S8x300x1152_S8x300x1152_0_0_0 : ∀ a, (![0, 0, 0] : Fin 3 → Nat) a + S8x300x1152.size a ≤ S8x300x1152.size a
  h_S8x300x1152 : 0 < S8x300x1152.numel
  reduces_S8x300x1152_S8x1152 : S8x300x1152.Reduces [1] S8x1152
  inb_S285x1152_S285x1152_0_0 : ∀ a, (![0, 0] : Fin 2 → Nat) a + S285x1152.size a ≤ S285x1152.size a
  h_S285x1152 : 0 < S285x1152.numel
  shapeCasts_S285x1152_S285x1152 : S285x1152.ShapeCasts S285x1152
  transposes_S285x1152_p1_0_S1152x285 : S285x1152.Transposes [1, 0] S1152x285
  inb_S1x285_S1x285_0_0 : ∀ a, (![0, 0] : Fin 2 → Nat) a + S1x285.size a ≤ S1x285.size a
  h_S1x285 : 0 < S1x285.numel
  shapeCasts_S1x285_S1x285 : S1x285.ShapeCasts S1x285
  broadcasts_S1x285_S8x285 : S1x285.Broadcasts S8x285
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x285 : S8x1.Broadcasts S8x285
  inb_S8x285_S8x285_0_0 : ∀ a, (![0, 0] : Fin 2 → Nat) a + S8x285.size a ≤ S8x285.size a
  h_S8x285 : 0 < S8x285.numel
  dot_S8x1152_S1152x285_S8x285_1_0_0_1_n_n_wf : DotDims.WF S8x1152 S1152x285 S8x285 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x300x1152.size a ≤ S256x300x1152.size a
  hwx0_0 : ∀ i : grid0.Coords, EltTy.bits .f32 = 32 ∨ (Rect.block (s := S256x300x1152) S8x300x1152.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S285x1152.size a ≤ S285x1152.size a
  hwx0_1 : ∀ i : grid0.Coords, EltTy.bits .bf16 = 32 ∨ (Rect.block (s := S285x1152) S285x1152.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x285.size a ≤ S1x285.size a
  hwx0_2 : ∀ i : grid0.Coords, EltTy.bits .f32 = 32 ∨ (Rect.block (s := S1x285) S1x285.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S256x1.size a
  hwx0_3 : ∀ i : grid0.Coords, EltTy.bits .f32 = 32 ∨ (Rect.block (s := S256x1) S8x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x285.size a ≤ S256x285.size a
  hwx0_4 : ∀ i : grid0.Coords, EltTy.bits .f32 = 32 ∨ (Rect.block (s := S256x285) S8x285.size (cc0_transform_4 i) (hinb0_4 i)).WholeWords (EltTy.packing .f32)

variable [Facts₀]

def dot_S8x1152_S1152x285_S8x285_1_0_0_1_n_n : DotDims S8x1152 S1152x285 S8x285 where
  lhsContracting := [1]
  rhsContracting := [0]
  lhsNonContracting := [0]
  rhsNonContracting := [1]
  lhsBatch := []
  rhsBatch := []
  wf := dot_S8x1152_S1152x285_S8x285_1_0_0_1_n_n_wf

abbrev win0_0 : Pipeline.Window sig grid0 :=
  Pipeline.Window.ofSpec (Memref.whole main_arg0) S8x300x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S285x1152.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x285.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S8x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S8x285.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x300x1152 : Shape := ⟨3, ![256, 300, 1152]⟩
abbrev S256 : Shape := ⟨1, ![256]⟩
abbrev S285x1152 : Shape := ⟨2, ![285, 1152]⟩
abbrev S285 : Shape := ⟨1, ![285]⟩
abbrev S_ : Shape := ⟨0, ![]⟩
abbrev S256x1152 : Shape := ⟨2, ![256, 1152]⟩
abbrev S256x285 : Shape := ⟨2, ![256, 285]⟩
abbrev S1x285 : Shape := ⟨2, ![1, 285]⟩
abbrev S256x1 : Shape := ⟨2, ![256, 1]⟩

abbrev nBuf : Space → Nat
  | .hbm => 23
  | .vmem => 0
  | .smem => 0
  | _ => 0

abbrev bufTy : (tb : Table) → Fin (tcTables nBuf tb) → BufTy
  | .hbm, ⟨0, _⟩ => ⟨S256x300x1152, .f32⟩
  | .hbm, ⟨1, _⟩ => ⟨S256, .i32⟩
  | .hbm, ⟨2, _⟩ => ⟨S285x1152, .f32⟩
  | .hbm, ⟨3, _⟩ => ⟨S285, .f32⟩
  | .hbm, ⟨4, _⟩ => ⟨S_, .f32⟩
  | .hbm, ⟨5, _⟩ => ⟨S256x300x1152, .f32⟩
  | .hbm, ⟨6, _⟩ => ⟨S256x300x1152, .f32⟩
  | .hbm, ⟨7, _⟩ => ⟨S_, .f32⟩
  | .hbm, ⟨8, _⟩ => ⟨S256x300x1152, .f32⟩
  | .hbm, ⟨9, _⟩ => ⟨S256x300x1152, .f32⟩
  | .hbm, ⟨10, _⟩ => ⟨S_, .f32⟩
  | .hbm, ⟨11, _⟩ => ⟨S256x1152, .f32⟩
  | .hbm, ⟨12, _⟩ => ⟨S256x285, .f32⟩
  | .hbm, ⟨13, _⟩ => ⟨S_, .f32⟩
  | .hbm, ⟨14, _⟩ => ⟨S285, .f32⟩
  | .hbm, ⟨15, _⟩ => ⟨S285, .f32⟩
  | .hbm, ⟨16, _⟩ => ⟨S1x285, .f32⟩
  | .hbm, ⟨17, _⟩ => ⟨S256x285, .f32⟩
  | .hbm, ⟨18, _⟩ => ⟨S256x285, .f32⟩
  | .hbm, ⟨19, _⟩ => ⟨S256, .f32⟩
  | .hbm, ⟨20, _⟩ => ⟨S256x1, .f32⟩
  | .hbm, ⟨21, _⟩ => ⟨S256x285, .f32⟩
  | .hbm, ⟨22, _⟩ => ⟨S256x285, .f32⟩
  | _, _ => ⟨S256x300x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S256x300x1152 : S_.BroadcastsInDim S256x300x1152 (![] : Fin 0 → Fin S256x300x1152.rank)
  reducesTo_S256x300x1152_S256x1152_d1 : S256x300x1152.ReducesTo [1] S256x1152
  h_S_ : 0 < S_.numel
  bcast_S_S285 : S_.BroadcastsInDim S285 (![] : Fin 0 → Fin S285.rank)
  bcast_S285_S1x285_1 : S285.BroadcastsInDim S1x285 (![1] : Fin 1 → Fin S1x285.rank)
  bcast_S1x285_S256x285_0_1 : S1x285.BroadcastsInDim S256x285 (![0, 1] : Fin 2 → Fin S256x285.rank)
  bcast_S256_S256x1_0 : S256.BroadcastsInDim S256x1 (![0] : Fin 1 → Fin S256x1.rank)
  bcast_S256x1_S256x285_0_1 : S256x1.BroadcastsInDim S256x285 (![0, 1] : Fin 2 → Fin S256x285.rank)
  dot_S256x1152_S285x1152_S256x285_1_1_0_0_n_n_wf : DotDims.WF S256x1152 S285x1152 S256x285 [1] [1] [0] [0] [] []

variable [Facts₀]

def dot_S256x1152_S285x1152_S256x285_1_1_0_0_n_n : DotDims S256x1152 S285x1152 S256x285 where
  lhsContracting := [1]
  rhsContracting := [1]
  lhsNonContracting := [0]
  rhsNonContracting := [0]
  lhsBatch := []
  rhsBatch := []
  wf := dot_S256x1152_S285x1152_S256x285_1_1_0_0_n_n_wf

class Facts : Prop extends Facts₀ where

variable [Facts]
-- ==== Proof.FiniteInputs.lean ====
/-
  The precondition says every float input is finite: each of `x`, `w`, `b` passes `|·| < +∞` at every index, the three
  `all`s joined by `and`. On the extended reals `|y| < +∞` excludes exactly the two infinities, so every entry is a real
  number — which is what distributivity needs.
-/
import proofs.«171746_j89833535963820_2_alg».proof.Pre_finite_inputs
import Idealize.ShloMosaic.Lib.ReduceAll
import Idealize.ShloMosaic.Lib.Pipeline.Value
import Idealize.ShloMosaic.Lib.ValueIdx
import Idealize.ShloMosaic.PureOps.Ideal

noncomputable section

namespace Cert.Pre_finite_inputs.Reals

open Cert.Pre_finite_inputs Idealize.ShloMosaic Idealize.ShloMosaic.ValueIdx

instance : Subsingleton S_.Idx := ⟨fun a b => funext fun d => d.elim0⟩

/-- An extended real whose absolute value is below `+∞` is a real number. -/
theorem real_of_abs_lt_inf (y : EReal)
    (h : FloatOps.cmpf (F := Ideal) (φ := .f32) .olt (FloatOps.hostAbsf (F := Ideal) (φ := .f32) y)
      (FloatOps.ofBits (F := Ideal) .f32 0x7F800000#32) = 1#1) : ∃ r : ℝ, y = (r : EReal) := by
  have htop : Ideal.ofBits .f32 0x7F800000#32 = ⊤ := by simp [Ideal.ofBits, Ideal.ieee]
  change Ideal.cmp .olt (max (y : EReal) (-(y : EReal))) (Ideal.ofBits .f32 0x7F800000#32) = 1#1 at h
  rw [htop] at h
  unfold Ideal.cmp at h
  induction y using EReal.rec with
  | bot => simp at h
  | coe r => exact ⟨r, rfl⟩
  | top => simp at h

/-- Under the precondition the three float inputs hold real numbers. -/
theorem reals_of_pre [Facts] (x : FVec Ideal S256x300x1152 .f32) (len : IVec S256 32) (w : FVec Ideal S285x1152 .f32)
    (b : FVec Ideal S285 .f32) (h : fn (F := Ideal) x len w b = fun _ => 1#1) :
    (∀ i, ∃ r : ℝ, x i = (r : EReal)) ∧ (∀ i, ∃ r : ℝ, w i = (r : EReal)) ∧ (∀ i, ∃ r : ℝ, b i = (r : EReal)) := by
  have h0 := congrFun h ix0
  dsimp only [fn] at h0
  obtain ⟨h12, h3⟩ := IntOp.andi_eq_one.1 h0
  obtain ⟨h1, h2⟩ := IntOp.andi_eq_one.1 h12
  refine ⟨fun i => ?_, fun i => ?_, fun i => ?_⟩
  · have e := Host.reduce_andi_all _ _ _ _ ix0 h1 i
    rw [cmpf_apply, broadcastInDim_apply _ Facts.bcast_S_S256x300x1152 _ i ix0 (fun a => a.elim0)] at e
    exact real_of_abs_lt_inf (x i) e
  · have e := Host.reduce_andi_all _ _ _ _ ix0 h2 i
    rw [cmpf_apply, broadcastInDim_apply _ Facts.bcast_S_S285x1152 _ i ix0 (fun a => a.elim0)] at e
    exact real_of_abs_lt_inf (w i) e
  · have e := Host.reduce_andi_all _ _ _ _ ix0 h3 i
    rw [cmpf_apply, broadcastInDim_apply _ Facts.bcast_S_S285 _ i ix0 (fun a => a.elim0)] at e
    exact real_of_abs_lt_inf (b i) e

end Cert.Pre_finite_inputs.Reals

end
-- ==== Proof.LibDivSum.lean ====
/-
  Dividing a finite sum of products by a real number, on the extended reals — general in the index type.

  On the extended reals a quotient by a real number that is not zero is the product with its reciprocal. When the
  factors are real numbers the sums are sums of reals, and `(∑ₖ aₖ wₖ) / c = ∑ₖ (aₖ / c) · wₖ` by distributivity in the
  reals. Beside it: the coercion from the reals commutes with a finite sum, and the larger of the float 1.0 and a real
  number is a real number that is not zero (a clipped degree or count is a legitimate divisor).
-/
import Idealize.ShloMosaic.PureOps.Ideal
import Idealize.ShloMosaic.PureOps.Ideal.Laws
import Idealize.ShloMosaic.Lib.IdealHost

noncomputable section

open scoped BigOperators

namespace Cert.LibDivSum

open Idealize.ShloMosaic

/-- The coercion from the reals to the extended reals commutes with a finite sum. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The larger of the float 1.0 and a real number is a real number that is not zero. -/
theorem clip_real (s : ℝ) : ∃ c : ℝ, max (Ideal.ofBits .f32 0x3F800000#32) (s : EReal) = (c : EReal) ∧ c ≠ 0 := by
  refine ⟨max 1 s, ?_, ?_⟩
  · rw [Ideal.ofBits_one_f32, show (1 : EReal) = ((1 : ℝ) : EReal) by norm_cast]
    exact (Monotone.map_max (fun _ _ h => EReal.coe_le_coe_iff.mpr h)).symm
  · have : (1 : ℝ) ≤ max 1 s := le_max_left _ _
    intro h; rw [h] at this; norm_num at this

/-- Real entries, a real divisor that is not zero: dividing the sum of products is the sum of products of the
    divided weights. -/
theorem div_sum_eq {ι : Type*} [Fintype ι] (a w : ι → EReal) (c : ℝ) (hc : c ≠ 0)
    (ha : ∀ k, ∃ r : ℝ, a k = (r : EReal)) (hw : ∀ k, ∃ r : ℝ, w k = (r : EReal)) :
    Ideal.div (∑ k, a k * w k) (c : EReal) = ∑ k, Ideal.div (a k) (c : EReal) * w k := by
  choose ar har using ha
  choose wr hwr using hw
  have hl : ∑ k, a k * w k = ((∑ k, ar k * wr k : ℝ) : EReal) := by
    rw [coe_sum]
    exact Finset.sum_congr rfl fun k _ => by rw [har, hwr, EReal.coe_mul]
  have hr : ∑ k, Ideal.div (a k) (c : EReal) * w k = ((∑ k, ar k * (1 / c) * wr k : ℝ) : EReal) := by
    rw [coe_sum]
    exact Finset.sum_congr rfl fun k _ => by
      rw [Ideal.div_coe hc, har, hwr, ← EReal.coe_mul, ← EReal.coe_mul]
  rw [Ideal.div_coe hc, hl, hr, ← EReal.coe_mul, Finset.sum_mul]
  refine congrArg (fun t : ℝ => (t : EReal)) (Finset.sum_congr rfl fun k _ => ?_)
  ring

end Cert.LibDivSum

end
-- ==== Proof.PoolLaw.lean ====
/-
  The algebra that joins the two programs, on one output entry.

  Fix a batch row and an output unit; write `x t c` for the row's input at time `t` (of 300) and channel `c`, `w c` for the
  unit's weights and `β` for its bias. One side sums `x` over time first, scales the sum by 2⁻⁶, takes the dot product
  with `w`, and adds the constant `β · 300 − 600 · ∑ w`. The other side takes the dot product of
  `∑ₜ (x t c / 64 − 2)` with `w` and adds `β · 300`. Since `∑ₜ (x t c / 64 − 2) = (∑ₜ x t c) / 64 − 2 · 300`, the two agree
  by distributivity — a law of the real numbers that fails at infinities, so every operand is assumed real. The float
  words of the constants denote exactly 2⁻⁶, 64, 2, 300 and 600, and a quotient by the real 64 is the product with its
  reciprocal.
-/
import Idealize.ShloMosaic.PureOps.Ideal
import Idealize.ShloMosaic.PureOps.Ideal.Laws
import proofs.«171746_j89833535963820_2_alg».proof.Proof.LibDivSum

noncomputable section

open scoped BigOperators

namespace Cert.PoolLaw

open Idealize.ShloMosaic

/-- The float word of `0.015625` denotes the real 1/64. -/
theorem f_inv64 : Ideal.ofBits .f32 0x3C800000#32 = ((1 / 64 : ℝ) : EReal) := by
  simp [Ideal.ofBits, Ideal.ieee, -EReal.coe_mul]; norm_num

/-- The float word of `64.0` denotes the real 64. -/
theorem f_64 : Ideal.ofBits .f32 0x42800000#32 = ((64 : ℝ) : EReal) := by
  simp [Ideal.ofBits, Ideal.ieee, -EReal.coe_mul]; norm_num

/-- The float word of `2.0` denotes the real 2. -/
theorem f_2 : Ideal.ofBits .f32 0x40000000#32 = ((2 : ℝ) : EReal) := by
  simp [Ideal.ofBits, Ideal.ieee, -EReal.coe_mul]; norm_num

/-- The float word of `300.0` denotes the real 300. -/
theorem f_300 : Ideal.ofBits .f32 0x43960000#32 = ((300 : ℝ) : EReal) := by
  simp [Ideal.ofBits, Ideal.ieee, -EReal.coe_mul]; norm_num

/-- The float word of `600.0` denotes the real 600. -/
theorem f_600 : Ideal.ofBits .f32 0x44160000#32 = ((600 : ℝ) : EReal) := by
  simp [Ideal.ofBits, Ideal.ieee, -EReal.coe_mul]; norm_num

/-- The law in the reals: summing over the 300 time steps before or after the affine map `y ↦ y / 64 − 2`. -/
theorem real_law {n : ℕ} (x : Fin 300 → Fin n → ℝ) (w : Fin n → ℝ) (β : ℝ) :
    (∑ c, ((∑ t, x t c) * (1 / 64)) * w c) + (β * 300 - 600 * (0 + ∑ c, w c))
      = (∑ c, (0 + ∑ t, (x t c * (1 / 64) - 2)) * w c) + β * 300 := by
  have h : ∀ c, (0 + ∑ t : Fin 300, (x t c * (1 / 64) - 2)) = (∑ t, x t c) * (1 / 64) - 600 := by
    intro c
    rw [Finset.sum_sub_distrib, ← Finset.sum_mul, Finset.sum_const, Finset.card_univ, Fintype.card_fin, zero_add,
      nsmul_eq_mul]
    generalize (∑ t, x t c) = S
    norm_num
  have e1 : ∑ c, (0 + ∑ t, (x t c * (1 / 64) - 2)) * w c
      = (∑ c, ((∑ t, x t c) * (1 / 64)) * w c) - 600 * ∑ c, w c := by
    rw [Finset.mul_sum, ← Finset.sum_sub_distrib]
    refine Finset.sum_congr rfl fun c _ => ?_
    rw [h c, sub_mul]
  rw [e1]
  generalize (∑ c, ((∑ t, x t c) * (1 / 64)) * w c) = A
  generalize (∑ c, w c) = W
  ring

/-- The law on the extended reals, every operand a real number, in the two programs' own spelling. -/
theorem pooled_eq {n : ℕ} (x : Fin 300 → Fin n → EReal) (w : Fin n → EReal) (β : EReal)
    (hx : ∀ t c, ∃ r : ℝ, x t c = (r : EReal)) (hw : ∀ c, ∃ r : ℝ, w c = (r : EReal)) (hβ : ∃ r : ℝ, β = (r : EReal)) :
    (∑ c, ((∑ t, x t c) * Ideal.ofBits .f32 0x3C800000#32) * w c)
        + (β * Ideal.ofBits .f32 0x43960000#32
            - Ideal.ofBits .f32 0x44160000#32 * (Ideal.ofBits .f32 0x00000000#32 + ∑ c, w c))
      = (∑ c, (Ideal.ofBits .f32 0x00000000#32
            + ∑ t, (Ideal.div (x t c) (Ideal.ofBits .f32 0x42800000#32) - Ideal.ofBits .f32 0x40000000#32)) * w c)
        + β * Ideal.ofBits .f32 0x43960000#32 := by
  choose xr hxr using hx
  choose wr hwr using hw
  obtain ⟨br, rfl⟩ := hβ
  have hx' : x = fun t c => ((xr t c : ℝ) : EReal) := funext fun t => funext fun c => hxr t c
  have hw' : w = fun c => ((wr c : ℝ) : EReal) := funext hwr
  subst hx' hw'
  rw [f_inv64, f_300, f_600, f_64, f_2, Ideal.ofBits_zero_f32]
  simp only [Ideal.div_coe (by norm_num : (64 : ℝ) ≠ 0), ← EReal.coe_zero, ← EReal.coe_mul, ← EReal.coe_sub,
    ← EReal.coe_add, ← Cert.LibDivSum.coe_sum]
  exact congrArg _ (real_law xr wr br)

end Cert.PoolLaw

end
-- ==== Proof.Pooled.lean ====
/-
  What both programs compute, as one function of the four inputs, in two arrangements.

  `x` is the input of shape 256 × 300 × 1152 (batch × time × channel), `d` the 256 lengths as floats, `w` the weights
  (285 × 1152) and `b` the 285 biases. Entry `(p, o)` of the result is a numerator divided by `d p`.
  `fused` sums over time first: `(∑ c, ((∑ t, x (p,t,c)) · 2⁻⁶) · w (o,c)) + (b o · 300 − 600 · (0 + ∑ c, w (o,c)))`.
  `direct` maps every input through `y ↦ y / 64 − 2` first: `(∑ c, (0 + ∑ t, (x (p,t,c) / 64 − 2)) · w (o,c)) + b o · 300`.
  The numerators agree when `x`, `w` and `b` hold real numbers (the law of the module imported here); the divisor is the
  same on both sides and is never opened.
-/
import proofs.«171746_j89833535963820_2_alg».proof.Proof.PoolLaw
import Idealize.ShloMosaic.Lib.ValueIdx

noncomputable section

open scoped BigOperators

namespace Cert.Pooled

open Idealize.ShloMosaic Idealize.ShloMosaic.ValueIdx

/-- Time sum first, then the scaled product with the weights, plus the folded constant; divided by the length. -/
def fused (x : (⟨3, ![256, 300, 1152]⟩ : Shape).Idx → EReal) (d : (⟨1, ![256]⟩ : Shape).Idx → EReal)
    (w : (⟨2, ![285, 1152]⟩ : Shape).Idx → EReal) (b : (⟨1, ![285]⟩ : Shape).Idx → EReal) :
    (⟨2, ![256, 285]⟩ : Shape).Idx → EReal := fun i =>
  Ideal.div
    ((∑ c : Fin 1152, ((∑ t : Fin 300, x (ix3 (i 0) t c)) * Ideal.ofBits .f32 0x3C800000#32) * w (ix2 (i 1) c))
      + (b (ix1 (i 1)) * Ideal.ofBits .f32 0x43960000#32
          - Ideal.ofBits .f32 0x44160000#32 * (Ideal.ofBits .f32 0x00000000#32 + ∑ c : Fin 1152, w (ix2 (i 1) c))))
    (d (ix1 (i 0)))

/-- Every input through `y ↦ y / 64 − 2`, summed over time, then the product with the weights, plus the bias 300 times;
    divided by the length. -/
def direct (x : (⟨3, ![256, 300, 1152]⟩ : Shape).Idx → EReal) (d : (⟨1, ![256]⟩ : Shape).Idx → EReal)
    (w : (⟨2, ![285, 1152]⟩ : Shape).Idx → EReal) (b : (⟨1, ![285]⟩ : Shape).Idx → EReal) :
    (⟨2, ![256, 285]⟩ : Shape).Idx → EReal := fun i =>
  Ideal.div
    ((∑ c : Fin 1152, (Ideal.ofBits .f32 0x00000000#32
          + ∑ t : Fin 300, (Ideal.div (x (ix3 (i 0) t c)) (Ideal.ofBits .f32 0x42800000#32) - Ideal.ofBits .f32 0x40000000#32))
        * w (ix2 (i 1) c))
      + b (ix1 (i 1)) * Ideal.ofBits .f32 0x43960000#32)
    (d (ix1 (i 0)))

/-- On real inputs the two arrangements are one function. -/
theorem fused_eq_direct (x : (⟨3, ![256, 300, 1152]⟩ : Shape).Idx → EReal) (d : (⟨1, ![256]⟩ : Shape).Idx → EReal)
    (w : (⟨2, ![285, 1152]⟩ : Shape).Idx → EReal) (b : (⟨1, ![285]⟩ : Shape).Idx → EReal)
    (hx : ∀ i, ∃ r : ℝ, x i = (r : EReal)) (hw : ∀ i, ∃ r : ℝ, w i = (r : EReal)) (hb : ∀ i, ∃ r : ℝ, b i = (r : EReal)) :
    fused x d w b = direct x d w b := by
  funext i
  unfold fused direct
  exact congrArg (fun s => Ideal.div s (d (ix1 (i 0))))
    (Cert.PoolLaw.pooled_eq (fun t c => x (ix3 (i 0) t c)) (fun c => w (ix2 (i 1) c)) (b (ix1 (i 1)))
      (fun t c => hx _) (fun c => hw _) (hb _))

end Cert.Pooled

end
-- ==== Proof.RefIsDirect.lean ====
/-
  The reference computes `direct`: read one operation at a time at entry `(p, o)`, its last stage is the quotient of
  `(∑ c, (0 + ∑ t, (x (p,t,c) / 64 − 2)) · w (o,c)) + b o · 300` by the float of length `p`; the broadcasts only move
  indices, which the equations below identify with coordinates.
-/
import proofs.«171746_j89833535963820_2_alg».proof.Proof.Gen.ReferenceIdeal.Read
import proofs.«171746_j89833535963820_2_alg».proof.Proof.Pooled

noncomputable section

open scoped BigOperators

namespace Cert.ReferenceIdeal.RefValue

open Cert.ReferenceIdeal Cert.ReferenceIdeal.Read Idealize.ShloMosaic Idealize.ShloMosaic.ValueIdx

/-- The reference's result, as a function of its four arguments, is `direct` of them (the lengths converted to floats). -/
theorem result_eq (x0 : (⟨S256x300x1152, .f32⟩ : BufTy).Contents (Elt Ideal)) (x1 : (⟨S256, .i32⟩ : BufTy).Contents (Elt Ideal))
    (x2 : (⟨S285x1152, .f32⟩ : BufTy).Contents (Elt Ideal)) (x3 : (⟨S285, .f32⟩ : BufTy).Contents (Elt Ideal)) :
    val_main_v14 (F := Ideal) x0 x1 x2 x3 = Cert.Pooled.direct x0 (sitofp (F := Ideal) .f32 x1) x2 x3 := by
  funext i
  obtain ⟨p, o, rfl⟩ : ∃ (p : Fin 256) (o : Fin 285), i = ix2 p o := ⟨i 0, i 1, eq_ix2 i⟩
  have e4 : ∀ (k : Fin 1152) (t : Fin 300), idx_main_v4 (lidx_main_v5 (ix2 p o) k) t = ix3 p t k := fun k t =>
    funext fun a => Fin.ext (by match a with | ⟨0, _⟩ => rfl | ⟨1, _⟩ => rfl | ⟨2, _⟩ => rfl)
  have er : ∀ k : Fin 1152, ridx_main_v5 (ix2 p o) k = ix2 o k := fun k =>
    funext fun a => Fin.ext (by match a with | ⟨0, _⟩ => rfl | ⟨1, _⟩ => rfl)
  have e8 : idx_main_v8 (idx_main_v9 (ix2 p o)) = ix1 o :=
    funext fun a => Fin.ext (by match a with | ⟨0, _⟩ => rfl)
  have e12 : idx_main_v12 (idx_main_v13 (ix2 p o)) = ix1 p :=
    funext fun a => Fin.ext (by match a with | ⟨0, _⟩ => rfl)
  rw [val_main_v14_apply, val_main_v10_apply, val_main_v5_apply, val_main_v9_apply, val_main_v8_apply, val_main_v7_apply,
    val_main_v6_apply, val_main_cst_2_apply, val_main_v13_apply, val_main_v12_apply, val_main_v11_apply]
  simp only [val_main_v4_apply, val_main_v3_apply, val_main_v1_apply, val_main_v0_apply, val_main_v2_apply,
    val_main_cst_apply, val_main_cst_0_apply, val_main_cst_1_apply, e4, er, e8, e12]
  rfl

end Cert.ReferenceIdeal.RefValue

end
-- ==== Proof.LibBlocks.lean ====
/-
  Three more ways a block of numbers is read at an index — general in the extents.

  An `a × n` matrix with `n = b·c`, recast as an `a × b × c` block (each row cut into `b` groups of `c`), reads at
  `(p, s, l)` the matrix's entry `(p, c·s + l)`; an `a × 1` column recast as a vector reads at `p` the column's entry
  `(p, 0)`; and the sum of an `a × b × c` block along its middle axis, over the
  extended reals, reads at `(p, q)` the sum over `k` of the entries `(p, k, q)`.
-/
import Idealize.ShloMosaic.Lib.Pipeline.Value
import Idealize.ShloMosaic.Lib.ValueIdx
import Idealize.ShloMosaic.PureOps.Ideal.Laws

noncomputable section

open scoped BigOperators

namespace Cert.LibBlocks

open Idealize.ShloMosaic Idealize.ShloMosaic.ValueIdx

variable {α : Type}

/-- A matrix whose rows of length `n = b·c` are cut into `b` groups of `c` reads, at `(p, s, l)`, its entry
    `(p, c·s + l)`. -/
theorem shapeCast_rows_split_apply {a b c n : ℕ} (hn : n = b * c) (x : (⟨2, ![a, n]⟩ : Shape).Idx → α)
    (h : (⟨2, ![a, n]⟩ : Shape).ShapeCasts ⟨3, ![a, b, c]⟩) (p : Fin a) (s : Fin b) (l : Fin c) (q : Fin n)
    (hq : q.val = c * s.val + l.val) :
    shapeCast ⟨3, ![a, b, c]⟩ x h (ix3 p s l) = x (ix2 p q) := by
  refine shapeCast_apply x h (ix3 p s l) (ix2 p q) ?_
  rw [Shape.rowMajor_val_two, Shape.rowMajor_val_three]
  show p.val * n + q.val = (p.val * b + s.val) * c + l.val
  rw [hq, hn]
  ring

/-- An `a × 1` column recast as a vector of `a` entries reads, at `p`, the column's entry `(p, 0)`. -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) := by
  refine shapeCast_apply x h (ix1 p) (ix2 p (0 : Fin 1)) ?_
  rw [Shape.rowMajor_val_one, Shape.rowMajor_val_two]
  show p.val * 1 + 0 = p.val
  omega

/-- Over the extended reals the sum of an `a × b × c` block along its middle axis reads, at `(p, q)`,
    `∑ₖ src (p, k, q)`. -/
theorem midSum_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (q : Fin c) :
    multiReduction .add [1] ⟨2, ![a, c]⟩ src acc h hφ hacc (ix2 p q) = ∑ k : Fin b, src (ix3 p k q) := by
  refine (Ideal.multiReduction_add_single src acc h hφ hacc (ix2 p q)).trans ?_
  refine Finset.sum_congr rfl fun k _ => congrArg src ?_
  funext d
  apply Fin.ext
  match d with
  | ⟨0, _⟩ => rfl
  | ⟨1, _⟩ => rfl
  | ⟨2, _⟩ => rfl

end Cert.LibBlocks

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.StepEntry.lean ====
/-
  One entry of what a grid step computes from the four blocks it loads.

  A step holds eight batch rows: a block `x` of shape 8 × 300 × 1152 (rows × time × channel), the whole weight matrix `w`
  (285 × 1152, one row per output unit), the effective bias as a 1 × 285 row `β`, and the eight lengths as an 8 × 1
  column `d`. The step sums `x` over time, scales each sum by 2⁻⁶, multiplies by the transposed weights, adds the bias
  row to every row and divides row `p` by `d p`. On the extended reals a change of float format is the identity, the
  time sum and the matrix product into a zero accumulator are plain finite sums, so entry `(p, o)` is
  `((∑ c, ((∑ t, x (p, t, c)) · 2⁻⁶) · w (o, c)) + β (0, o)) / d (p, 0)`.
-/
import proofs.«171746_j89833535963820_2_alg».proof.Proof.Gen.KernelIdeal.Skeleton
import proofs.«171746_j89833535963820_2_alg».proof.Proof.LibBlocks
import proofs.«171746_j89833535963820_2_alg».proof.Proof.LibPlainDot
import proofs.«171746_j89833535963820_2_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Entry

open Cert.KernelIdeal Cert.KernelIdeal.Gen Idealize.ShloMosaic Idealize.ShloMosaic.ValueIdx

/-- The scaled time sums against the transposed weights: entry `(p, o)` of the product into the zero accumulator is the
    sum over the 1152 channels of the scaled time sum at `(p, c)` times the weight `(o, c)`. -/
theorem product_apply (z : FVec Ideal S8x1152 .bf16) (w : FVec Ideal S285x1152 .bf16) (p : Fin 8) (o : Fin 285) :
    matmul dot_S8x1152_S1152x285_S8x285_1_0_0_1_n_n none z
        (transpose S1152x285 [1, 0] w transposes_S285x1152_p1_0_S1152x285) (constant S8x285 .f32 0x00000000#32) (ix2 p o)
      = ∑ c : Fin 1152, z (ix2 p c) * w (ix2 o c) := by
  refine (Cert.PlainDot.matmul_zero_apply (n := 8) (K := 1152) (M := 285) dot_S8x1152_S1152x285_S8x285_1_0_0_1_n_n rfl rfl
    ?_ ?_ ?_ ?_ none z _ p o).trans ?_
  · intro i q
    unfold DotDims.lhsIdx
    rw [dif_neg (show ¬(0 : Fin S8x1152.rank) ∈ dot_S8x1152_S1152x285_S8x285_1_0_0_1_n_n.lhsBatch by decide),
      dif_pos (show (0 : Fin S8x1152.rank) ∈ dot_S8x1152_S1152x285_S8x285_1_0_0_1_n_n.lhsNonContracting by decide)]
    rfl
  · intro i q
    exact dot_S8x1152_S1152x285_S8x285_1_0_0_1_n_n.lhsIdx_val_of_single rfl i q
  · intro i q
    exact dot_S8x1152_S1152x285_S8x285_1_0_0_1_n_n.rhsIdx_val_of_single rfl i q
  · intro i q
    unfold DotDims.rhsIdx
    rw [dif_neg (show ¬(1 : Fin S1152x285.rank) ∈ dot_S8x1152_S1152x285_S8x285_1_0_0_1_n_n.rhsBatch by decide),
      dif_pos (show (1 : Fin S1152x285.rank) ∈ dot_S8x1152_S1152x285_S8x285_1_0_0_1_n_n.rhsNonContracting by decide)]
    rfl
  · refine Finset.sum_congr rfl fun c _ => ?_
    rw [transpose_ix2_apply w transposes_S285x1152_p1_0_S1152x285 c o]

/-- Entry `(p, o)` of a step's result, from the blocks it loads. -/
theorem step_apply (x : Vec Ideal S8x300x1152 .f32) (w : Vec Ideal S285x1152 .bf16) (β : Vec Ideal S1x285 .f32)
    (d : Vec Ideal S8x1 .f32) (p : Fin 8) (o : Fin 285) :
    k0_pay1 (F := Ideal) x w β d (ix2 p o)
      = Ideal.div ((∑ c : Fin 1152, ((∑ t : Fin 300, x (ix3 p t c)) * Ideal.ofBits .f32 0x3C800000#32) * w (ix2 o c))
          + β (ix2 (0 : Fin 1) o)) (d (ix2 p (0 : Fin 1))) := by
  unfold k0_pay1
  rw [divf_apply, addf_apply, shapeCast_self, shapeCast_self, shapeCast_self,
    Cert.LibColumns.broadcastTo_a1_ab_apply d broadcasts_S8x1_S8x285 p o,
    broadcastTo_1b_ab_apply β broadcasts_S1x285_S8x285 p o, product_apply]
  refine congrArg (fun s => Ideal.div (s + β (ix2 (0 : Fin 1) o)) (d (ix2 p (0 : Fin 1)))) ?_
  refine Finset.sum_congr rfl fun c _ => ?_
  rw [truncf_apply, mulf_apply, broadcast_apply,
    Cert.LibBlocks.midSum_apply x 0x00000000#32 reduces_S8x300x1152_S8x1152 (.inl rfl) rfl p c]
  rfl

end Cert.KernelIdeal.Entry

end
-- ==== Proof.HostPrep.lean ====
/-
  What the three arrays hold that the host prepares before the grid runs, read at an entry.

  The effective bias row, shape 1 × 285: entry `(0, o)` is `b o · 300 − 600 · (0 + ∑ c, w (o, c))`. The weights in the
  narrower float format: on the extended reals a change of format is the identity, so the array is `w`. The lengths as a
  256 × 1 column of floats: entry `(p, 0)` is the float of length `p`.
-/
import proofs.«171746_j89833535963820_2_alg».proof.Proof.Gen.KernelIdeal.Frame
import proofs.«171746_j89833535963820_2_alg».proof.Proof.LibColumns
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Prep

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The four argument arrays on core `c`, as plain functions of an index: the input, the integer lengths, the weights,
    the biases. -/
abbrev argX (c : Dev nD) : S256x300x1152.Idx → EReal := m ((c : Thread nD τ).loc main_arg0)
abbrev argLen (c : Dev nD) : S256.Idx → BitVec 32 := m ((c : Thread nD τ).loc main_arg1)
abbrev argW (c : Dev nD) : S285x1152.Idx → EReal := m ((c : Thread nD τ).loc main_arg2)
abbrev argB (c : Dev nD) : S285.Idx → EReal := m ((c : Thread nD τ).loc main_arg3)

/-- The sum of the weight matrix along its rows, from an initial value `z`: at `o` it is `z + ∑ c, w (o, c)`. -/
theorem weightSum_apply (w : FVec Ideal S285x1152 .f32) (z : FVec Ideal S_ .f32) (o : Fin 285) :
    Host.reduceAdd (F := Ideal) w z reducesTo_S285x1152_S285_d1 h_S_ (ix1 o) = z (Shape.Idx.first h_S_) + ∑ k : Fin 1152, w (ix2 o k) := by
  simp only [Host.reduceAdd, Ideal.hostReduceAdd_def]
  rw [Ideal.hostReduceAdd_single reducesTo_S285x1152_S285_d1 (by decide)]
  refine congrArg (_ + ·) (Finset.sum_congr rfl fun k _ => ?_)
  exact congrArg w (funext fun a => Fin.ext (by match a with | ⟨0, _⟩ => rfl | ⟨1, _⟩ => rfl))

/-- The effective bias row at `(0, o)`. -/
theorem biasRow_apply (c : Dev nD) (o : Fin 285) :
    (V m c main_v6 : S1x285.Idx → EReal) (ix2 (0 : Fin 1) o)
      = argB m c (ix1 o) * Ideal.ofBits .f32 0x43960000#32
        - Ideal.ofBits .f32 0x44160000#32
          * (Ideal.ofBits .f32 0x00000000#32 + ∑ k : Fin 1152, argW m c (ix2 o k)) := by
  have e : (V m c main_v6 : S1x285.Idx → EReal)
      = shapeCast S1x285 (subf (mulf (argB m c)
            (broadcastInDim S285 ![] bcast_S_S285 (constant (F := Ideal) S_ .f32 0x43960000#32)))
          (mulf (broadcastInDim S285 ![] bcast_S_S285 (constant (F := Ideal) S_ .f32 0x44160000#32))
            (Host.reduceAdd (F := Ideal) (argW m c) (constant (F := Ideal) S_ .f32 0x00000000#32)
              reducesTo_S285x1152_S285_d1 h_S_))) shapeCasts_S285_S1x285 := by
    dsimp only [Gen.V, Gen.hostOps0]; after_results; rfl
  rw [e, shapeCast_a_1a_apply _ shapeCasts_S285_S1x285 (0 : Fin 1) o, subf_apply, mulf_apply, mulf_apply, weightSum_apply,
    broadcastInDim_apply _ bcast_S_S285 _ (ix1 o) ix0 (fun a => a.elim0),
    broadcastInDim_apply _ bcast_S_S285 _ (ix1 o) ix0 (fun a => a.elim0)]
  rfl

/-- The weights the grid reads are the weights. -/
theorem weights_eq (c : Dev nD) :
    (V m c main_v7 : S285x1152.Idx → EReal) = argW m c := by
  have e : (V m c main_v7 : S285x1152.Idx → EReal)
      = truncf (F := Ideal) .bf16 (argW m c) bitsLt_bf16_f32 := by
    dsimp only [Gen.V, Gen.hostOps0]; after_results
  exact e.trans rfl

/-- The length column at `(p, 0)` is the float of length `p`. -/
theorem lengthCol_apply (c : Dev nD) (p : Fin 256) :
    (V m c main_v9 : S256x1.Idx → EReal) (ix2 p (0 : Fin 1))
      = sitofp (F := Ideal) .f32 (argLen m c) (ix1 p) := by
  have e : (V m c main_v9 : S256x1.Idx → EReal)
      = shapeCast S256x1 (sitofp (F := Ideal) .f32 (argLen m c)) shapeCasts_S256_S256x1 := by
    dsimp only [Gen.V, Gen.hostOps0]; after_results; rfl
  rw [e, Cert.LibColumns.shapeCast_a_a1_apply _ shapeCasts_S256_S256x1 p (0 : Fin 1)]

end Cert.KernelIdeal.Prep

end
-- ==== Proof.WholeArray.lean ====
/-
  From what one grid step writes to the whole result array.

  The grid has 32 steps; step `t` reads batch rows `8t … 8t + 7` of the input and of the length column, the whole
  weights and the whole bias row, and writes rows `8t … 8t + 7` of the result. Each block the step loads is the
  corresponding piece of an argument array (or of an array the host prepared from the arguments), so by the entry
  formula of a step the block it writes is that block of `fused` of the arguments. The 32 row blocks tile the
  256 rows (row `r` belongs to step `r / 8`), hence the result array ends as `fused` of the arguments.
-/
import proofs.«171746_j89833535963820_2_alg».proof.Proof.Gen.KernelIdeal.Value
import proofs.«171746_j89833535963820_2_alg».proof.Proof.StepEntry
import proofs.«171746_j89833535963820_2_alg».proof.Proof.HostPrep
import proofs.«171746_j89833535963820_2_alg».proof.Proof.Pooled

set_option maxRecDepth 16384

noncomputable section

open scoped BigOperators

namespace Cert.KernelIdeal.Whole

open Cert.KernelIdeal Cert.KernelIdeal.Gen Cert.KernelIdeal.Prep Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The block index of every window at every step, decided over the 32 steps: the input, the length column and the
    result move down one block of rows per step; the weights and the bias row stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Step `t`'s input block at `(p, s, k)` is the input at `(8t + p, s, k)`. -/
theorem xBlock_apply (c : Dev nD) (t : Fin cfg0.N) (p : Fin 8) (s : Fin 300) (k : Fin 1152) (q : Fin 256)
    (hq : q.val = t.val * 8 + p.val) :
    (iblk m c 0 t : Vec Ideal S8x300x1152 .f32) (ix3 p s k) = argX m c (ix3 q s k) := by
  obtain ⟨e0, e1, e2, -⟩ := idx_facts t
  show V m c main_arg0 (((cfg0.win 0).blk t).view.emb (ix3 p s k)) = m ((c : Thread nD τ).loc main_arg0) (ix3 q s k)
  rw [V_main_arg0 m c]
  refine congrArg _ (funext fun a => Fin.ext ?_)
  match a with
  | ⟨0, _⟩ => show win0_0.index t (0 : Fin 3) * 8 + 1 * p.val = q.val; rw [e0, hq]; omega
  | ⟨1, _⟩ => show win0_0.index t (1 : Fin 3) * 300 + 1 * s.val = s.val; rw [e1]; omega
  | ⟨2, _⟩ => show win0_0.index t (2 : Fin 3) * 1152 + 1 * k.val = k.val; rw [e2]; omega

/-- Every step's weight block is the weight matrix. -/
theorem wBlock_apply (c : Dev nD) (t : Fin cfg0.N) (o : Fin 285) (k : Fin 1152) :
    (iblk m c 1 t : Vec Ideal S285x1152 .bf16) (ix2 o k) = argW m c (ix2 o k) := by
  obtain ⟨-, -, -, e0, e1, -⟩ := idx_facts t
  show (V m c main_v7 : S285x1152.Idx → EReal) (((cfg0.win 1).blk t).view.emb (ix2 o k)) = argW m c (ix2 o k)
  rw [weights_eq m c]
  refine congrArg _ (funext fun a => Fin.ext ?_)
  match a with
  | ⟨0, _⟩ => show win0_1.index t (0 : Fin 2) * 285 + 1 * o.val = o.val; rw [e0]; omega
  | ⟨1, _⟩ => show win0_1.index t (1 : Fin 2) * 1152 + 1 * k.val = k.val; rw [e1]; omega

/-- Every step's bias block is the effective bias row. -/
theorem βBlock_apply (c : Dev nD) (t : Fin cfg0.N) (o : Fin 285) :
    (iblk m c 2 t : Vec Ideal S1x285 .f32) (ix2 (0 : Fin 1) o)
      = argB m c (ix1 o) * Ideal.ofBits .f32 0x43960000#32
        - Ideal.ofBits .f32 0x44160000#32
          * (Ideal.ofBits .f32 0x00000000#32 + ∑ k : Fin 1152, argW m c (ix2 o k)) := by
  obtain ⟨-, -, -, -, -, e0, e1, -⟩ := idx_facts t
  refine Eq.trans ?_ (biasRow_apply m c o)
  show (V m c main_v6 : S1x285.Idx → EReal) (((cfg0.win 2).blk t).view.emb (ix2 (0 : Fin 1) o))
    = (V m c main_v6 : S1x285.Idx → EReal) (ix2 (0 : Fin 1) o)
  refine congrArg _ (funext fun a => Fin.ext ?_)
  match a with
  | ⟨0, _⟩ => show win0_2.index t (0 : Fin 2) * 1 + 1 * 0 = 0; rw [e0]
  | ⟨1, _⟩ => show win0_2.index t (1 : Fin 2) * 285 + 1 * o.val = o.val; rw [e1]; omega

/-- Step `t`'s length block at `(p, 0)` is the float of length `8t + p`. -/
theorem dBlock_apply (c : Dev nD) (t : Fin cfg0.N) (p : Fin 8) (q : Fin 256) (hq : q.val = t.val * 8 + p.val) :
    (iblk m c 3 t : Vec Ideal S8x1 .f32) (ix2 p (0 : Fin 1)) = sitofp (F := Ideal) .f32 (argLen m c) (ix1 q) := by
  obtain ⟨-, -, -, -, -, -, -, e0, e1, -⟩ := idx_facts t
  refine Eq.trans ?_ (lengthCol_apply m c q)
  show (V m c main_v9 : S256x1.Idx → EReal) (((cfg0.win 3).blk t).view.emb (ix2 p (0 : Fin 1)))
    = (V m c main_v9 : S256x1.Idx → EReal) (ix2 q (0 : Fin 1))
  refine congrArg _ (funext fun a => Fin.ext ?_)
  match a with
  | ⟨0, _⟩ => show win0_3.index t (0 : Fin 2) * 8 + 1 * p.val = q.val; rw [e0, hq]; omega
  | ⟨1, _⟩ => show win0_3.index t (1 : Fin 2) * 1 + 1 * 0 = 0; rw [e1]

/-- Entry `(p, o)` of what step `t` computes is entry `(8t + p, o)` of `fused` of the arguments. -/
theorem point_entry (c : Dev nD) (t : Fin cfg0.N) (p : Fin 8) (o : Fin 285) (q : Fin 256) (hq : q.val = t.val * 8 + p.val) :
    k0_pay1 (F := Ideal) (iblk m c 0 t) (iblk m c 1 t) (iblk m c 2 t) (iblk m c 3 t) (ix2 p o)
      = Cert.Pooled.fused (argX m c) (sitofp (F := Ideal) .f32 (argLen m c)) (argW m c) (argB m c) (ix2 q o) := by
  refine (Cert.KernelIdeal.Entry.step_apply (iblk m c 0 t) (iblk m c 1 t) (iblk m c 2 t) (iblk m c 3 t) p o).trans ?_
  have hx : ∀ (s : Fin 300) (k : Fin 1152), (iblk m c 0 t : Vec Ideal S8x300x1152 .f32) (ix3 p s k) = argX m c (ix3 q s k) :=
    fun s k => xBlock_apply m c t p s k q hq
  have hw : ∀ k : Fin 1152, (iblk m c 1 t : Vec Ideal S285x1152 .bf16) (ix2 o k) = argW m c (ix2 o k) :=
    fun k => wBlock_apply m c t o k
  simp only [hx, hw, βBlock_apply m c t o, dBlock_apply m c t p q hq]
  rfl

/-- What step `t` writes back is block `t` of `fused` of the arguments. -/
theorem flushed_eq (c : Dev nD) (t : Fin cfg0.N) :
    (dats m 0 c).flushed 4 t = ((cfg0.win 4).blk t).view.read (Elt Ideal)
      (Cert.Pooled.fused (argX m c) (sitofp (F := Ideal) .f32 (argLen m c)) (argW m c) (argB m c)) := by
  rw [Value.flushed4]
  unfold out0_4
  rw [View.canon_unit_zero zero2]
  simp only [View.ld_unit_zero (S := S8x300x1152) zero3, View.ld_unit_zero (S := S285x1152) zero2,
    View.ld_unit_zero (S := S1x285) zero2, View.ld_unit_zero (S := S8x1) zero2]
  funext j
  obtain ⟨p, o, rfl⟩ : ∃ (p : Fin 8) (o : Fin 285), j = ix2 p o := ⟨j 0, j 1, eq_ix2 j⟩
  obtain ⟨-, -, -, -, -, -, -, -, -, e0, e1⟩ := idx_facts t
  have hN : t.val < 32 := Nat.lt_of_lt_of_eq t.isLt N_0
  have hemb : ((cfg0.win 4).blk t).view.emb (ix2 p o) = ix2 (⟨t.val * 8 + p.val, by omega⟩ : Fin 256) o := by
    funext a; apply Fin.ext
    match a with
    | ⟨0, _⟩ => show win0_4.index t (0 : Fin 2) * 8 + 1 * p.val = t.val * 8 + p.val; rw [e0]; omega
    | ⟨1, _⟩ => show win0_4.index t (1 : Fin 2) * 285 + 1 * o.val = o.val; rw [e1]; omega
  show k0_pay1 (F := Ideal) (iblk m c 0 t) (iblk m c 1 t) (iblk m c 2 t) (iblk m c 3 t) (ix2 p o)
    = Cert.Pooled.fused (argX m c) (sitofp (F := Ideal) .f32 (argLen m c)) (argW m c) (argB m c)
        (((cfg0.win 4).blk t).view.emb (ix2 p o))
  rw [hemb]
  exact point_entry m c t p o _ rfl

/-- An index of the result is in step `t`'s block iff each coordinate is in the block's range on its axis. -/
theorem mem_blk (t : Fin cfg0.N) (i : S256x285.Idx) :
    i ∈ ((cfg0.win 4).blk t).view.set ↔ ∀ a : Fin 2, win0_4.index t a * S8x285.size a ≤ (i a).val
      ∧ (i a).val < win0_4.index t a * S8x285.size a + S8x285.size a := by
  show i ∈ ((View.whole main_v10).slice (win0_4.rect t)).set ↔ _
  rw [View.set_slice_whole, Rect.mem_set_unit]
  exact Iff.rfl

/-- Every index of the result is in the block of the step that owns its row. -/
theorem cover (i : S256x285.Idx) :
    ∃ t : Fin cfg0.N, (cfg0.win 4).flush t = true ∧ i ∈ ((cfg0.win 4).blk t).view.set := by
  have hi0 : (i 0).val < 256 := (i 0).isLt
  have hi1 : (i 1).val < 285 := (i 1).isLt
  have hlt : (i 0).val / 8 < cfg0.N := Nat.lt_of_lt_of_eq (by omega : (i 0).val / 8 < 32) N_0.symm
  obtain ⟨-, -, -, -, -, -, -, -, -, e0, e1⟩ := idx_facts ⟨(i 0).val / 8, hlt⟩
  refine ⟨⟨(i 0).val / 8, hlt⟩, flush0_4 _, ?_⟩
  rw [mem_blk]
  intro a
  match a with
  | ⟨0, _⟩ =>
    show win0_4.index ⟨(i 0).val / 8, hlt⟩ (0 : Fin 2) * 8 ≤ (i 0).val
      ∧ (i 0).val < win0_4.index ⟨(i 0).val / 8, hlt⟩ (0 : Fin 2) * 8 + 8
    rw [e0]
    show (i 0).val / 8 * 8 ≤ (i 0).val ∧ (i 0).val < (i 0).val / 8 * 8 + 8
    omega
  | ⟨1, _⟩ =>
    show win0_4.index ⟨(i 0).val / 8, hlt⟩ (1 : Fin 2) * 285 ≤ (i 1).val
      ∧ (i 1).val < win0_4.index ⟨(i 0).val / 8, hlt⟩ (1 : Fin 2) * 285 + 285
    rw [e1]
    omega

/-- The result array after the run is `fused` of the arguments. -/
theorem final (c : Dev nD) :
    (dats m 0 c).arrAt 4 cfg0.N
      = Cert.Pooled.fused (argX m c) (sitofp (F := Ideal) .f32 (argLen m c)) (argW m c) (argB m c) :=
  (dats m 0 c).arrAt_eq_of_cover 4 _ (fun t _ => flushed_eq m c t) cover

/-- The run: it terminates with the result at `fused` of the arguments and the arguments unchanged. -/
theorem run : θ_run defs (onTc (τ := τ) (main (F := Ideal))) ⟨m, fun _ => 0, ρ⟩ fun r => ∀ c : Dev nD,
      r.2.mem ((c : Thread nD τ).loc main_v10)
        = Cert.Pooled.fused (argX m c) (sitofp (F := Ideal) .f32 (argLen m c)) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.lean ====
/-
  Mean-pooled affine layer over time: a fused kernel against its plain reference, equal on the extended reals.

  Inputs: `x` of shape 256 × 300 × 1152 (batch × time × channel), integer lengths (256), weights `w` (285 × 1152) and
  biases `b` (285). The reference maps every input through `y ↦ y / 64 − 2`, sums over the 300 time steps, multiplies
  by the weights (`∑ c, z (p, c) · w (o, c)`), adds `b o · 300` and divides row `p` by its length. The kernel sums the raw
  input over time in blocks of eight batch rows, scales the sums by 2⁻⁶, multiplies by the weights and adds an effective
  bias `b o · 300 − 600 · ∑ c, w (o, c)` that the host prepares once, then divides by the length. Both numerators are
  `(∑ c, (∑ t, x (p,t,c)) / 64 · w (o,c)) − 600 · ∑ c, w (o,c) + 300 · b o` once multiplication distributes over the sums,
  which holds because the precondition makes every entry of `x`, `w` and `b` a real number; the divisor, the float of the
  integer length, is the same term on both sides and is never opened (so a zero length needs no separate case).

  The three runs terminate with the arguments unchanged (the frames); the kernel is printed on the extended reals
  without any rewrite, so nothing is owed for the idealisation.
-/
import proofs.«171746_j89833535963820_2_alg».proof.Defs
import proofs.«171746_j89833535963820_2_alg».proof.Proof.Gen.Kernel
import proofs.«171746_j89833535963820_2_alg».proof.Proof.Gen.Kernel.Skeleton
import proofs.«171746_j89833535963820_2_alg».proof.Proof.Gen.Kernel.Launch
import proofs.«171746_j89833535963820_2_alg».proof.Proof.Gen.Kernel.Points
import proofs.«171746_j89833535963820_2_alg».proof.Proof.Gen.Kernel.Frame
import proofs.«171746_j89833535963820_2_alg».proof.Proof.Gen.KernelIdeal
import proofs.«171746_j89833535963820_2_alg».proof.Proof.Gen.KernelIdeal.Skeleton
import proofs.«171746_j89833535963820_2_alg».proof.Proof.Gen.KernelIdeal.Launch
import proofs.«171746_j89833535963820_2_alg».proof.Proof.Gen.KernelIdeal.Points
import proofs.«171746_j89833535963820_2_alg».proof.Proof.Gen.KernelIdeal.Frame
import proofs.«171746_j89833535963820_2_alg».proof.Proof.Gen.ReferenceIdeal
import proofs.«171746_j89833535963820_2_alg».proof.Proof.Gen.Pre_finite_inputs
import proofs.«171746_j89833535963820_2_alg».proof.Proof.Gen.KernelIdeal.Value
import proofs.«171746_j89833535963820_2_alg».proof.Proof.Gen.ReferenceIdeal.Run
import proofs.«171746_j89833535963820_2_alg».proof.Proof.Gen.ReferenceIdeal.Read
import proofs.«171746_j89833535963820_2_alg».proof.Proof.FiniteInputs
import proofs.«171746_j89833535963820_2_alg».proof.Proof.RefIsDirect
import proofs.«171746_j89833535963820_2_alg».proof.Proof.WholeArray
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at `fused` of the arguments, the reference's at `direct` of the same arguments, and on
    real inputs — the precondition — these are one function. -/
theorem algebraic : Cert.algebraic_KernelIdeal_ReferenceIdeal := by
  intro m ρ m' ρ' hpre hagree
  refine ⟨fun c => Cert.Pooled.fused (Cert.KernelIdeal.Prep.argX m c)
      (sitofp (F := Ideal) .f32 (Cert.KernelIdeal.Prep.argLen m c)) (Cert.KernelIdeal.Prep.argW m c)
      (Cert.KernelIdeal.Prep.argB m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw, hb⟩ := Cert.Pre_finite_inputs.Reals.reals_of_pre _ _ _ _ (hpre c)
  rw [Cert.ReferenceIdeal.Read.val_main_v14_eq, Cert.ReferenceIdeal.RefValue.result_eq, (hagree c).1, (hagree c).2.1,
    (hagree c).2.2.1, (hagree c).2.2.2]
  exact (Cert.Pooled.fused_eq_direct _ _ _ _ hx hw hb).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
